-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S2x1250000 32) (main_arg2 : FVec F S64x64 .f32) (main_arg3 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S1x64 : Shape := ⟨2, ![1, 64]⟩
abbrev S5000x64 : Shape := ⟨2, ![5000, 64]⟩

abbrev nBuf : Space → Nat
  | .hbm => 38
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S1x1250000, .i32⟩
  | .hbm, ⟨5, _⟩ => ⟨S1250000, .i32⟩
  | .hbm, ⟨6, _⟩ => ⟨S1x1250000, .i32⟩
  | .hbm, ⟨7, _⟩ => ⟨S1250000, .i32⟩
  | .hbm, ⟨8, _⟩ => ⟨S_, .i32⟩
  | .hbm, ⟨9, _⟩ => ⟨S1250000, .i32⟩
  | .hbm, ⟨10, _⟩ => ⟨S1250000, .i1⟩
  | .hbm, ⟨11, _⟩ => ⟨S_, .i32⟩
  | .hbm, ⟨12, _⟩ => ⟨S1250000, .i32⟩
  | .hbm, ⟨13, _⟩ => ⟨S1250000, .i32⟩
  | .hbm, ⟨14, _⟩ => ⟨S1250000, .i32⟩
  | .hbm, ⟨15, _⟩ => ⟨S1250000x1, .i32⟩
  | .hbm, ⟨16, _⟩ => ⟨S1250000x64, .f32⟩
  | .hbm, ⟨17, _⟩ => ⟨S_, .f32⟩
  | .hbm, ⟨18, _⟩ => ⟨S100000x64, .f32⟩
  | .hbm, ⟨19, _⟩ => ⟨S1250000x1, .i32⟩
  | .hbm, ⟨20, _⟩ => ⟨S100000x64, .f32⟩
  | .hbm, ⟨21, _⟩ => ⟨S1x64, .f32⟩
  | .hbm, ⟨22, _⟩ => ⟨S100000x64, .f32⟩
  | .hbm, ⟨23, _⟩ => ⟨S_, .i32⟩
  | .hbm, ⟨24, _⟩ => ⟨S1250000, .i32⟩
  | .hbm, ⟨25, _⟩ => ⟨S1250000, .i1⟩
  | .hbm, ⟨26, _⟩ => ⟨S_, .i32⟩
  | .hbm, ⟨27, _⟩ => ⟨S1250000, .i32⟩
  | .hbm, ⟨28, _⟩ => ⟨S1250000, .i32⟩
  | .hbm, ⟨29, _⟩ => ⟨S1250000, .i32⟩
  | .hbm, ⟨30, _⟩ => ⟨S1250000x1, .i32⟩
  | .hbm, ⟨31, _⟩ => ⟨S1250000x64, .f32⟩
  | .hbm, ⟨32, _⟩ => ⟨S_, .f32⟩
  | .hbm, ⟨33, _⟩ => ⟨S100000x64, .f32⟩
  | .hbm, ⟨34, _⟩ => ⟨S1250000x1, .i32⟩
  | .hbm, ⟨35, _⟩ => ⟨S100000x64, .f32⟩
  | .hbm, ⟨36, _⟩ => ⟨S1x64, .f32⟩
  | .hbm, ⟨37, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S5000x64_S64x64_S5000x64_1_1_0_0_n_n_wf : DotDims.WF S5000x64 S64x64 S5000x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x64_S64x64_S5000x64_1_1_0_0_n_n : DotDims S5000x64 S64x64 S5000x64 where
  lhsContracting := [1]
  rhsContracting := [1]
  lhsNonContracting := [0]
  rhsNonContracting := [0]
  lhsBatch := []
  rhsBatch := []
  wf := dot_S5000x64_S64x64_S5000x64_1_1_0_0_n_n_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S1x64 : Shape := ⟨2, ![1, 64]⟩

abbrev nBuf : Space → Nat
  | .hbm => 44
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S1x1250000, .i32⟩
  | .hbm, ⟨5, _⟩ => ⟨S1250000, .i32⟩
  | .hbm, ⟨6, _⟩ => ⟨S1x1250000, .i32⟩
  | .hbm, ⟨7, _⟩ => ⟨S1250000, .i32⟩
  | .hbm, ⟨8, _⟩ => ⟨S_, .i32⟩
  | .hbm, ⟨9, _⟩ => ⟨S1250000, .i32⟩
  | .hbm, ⟨10, _⟩ => ⟨S1250000, .i1⟩
  | .hbm, ⟨11, _⟩ => ⟨S_, .i32⟩
  | .hbm, ⟨12, _⟩ => ⟨S1250000, .i32⟩
  | .hbm, ⟨13, _⟩ => ⟨S1250000, .i32⟩
  | .hbm, ⟨14, _⟩ => ⟨S1250000, .i32⟩
  | .hbm, ⟨15, _⟩ => ⟨S1250000x1, .i32⟩
  | .hbm, ⟨16, _⟩ => ⟨S1250000x64, .f32⟩
  | .hbm, ⟨17, _⟩ => ⟨S_, .f32⟩
  | .hbm, ⟨18, _⟩ => ⟨S100000x64, .f32⟩
  | .hbm, ⟨19, _⟩ => ⟨S1250000x1, .i32⟩
  | .hbm, ⟨20, _⟩ => ⟨S100000x64, .f32⟩
  | .hbm, ⟨21, _⟩ => ⟨S64x64, .f32⟩
  | .hbm, ⟨22, _⟩ => ⟨S100000x64, .f32⟩
  | .hbm, ⟨23, _⟩ => ⟨S1x64, .f32⟩
  | .hbm, ⟨24, _⟩ => ⟨S100000x64, .f32⟩
  | .hbm, ⟨25, _⟩ => ⟨S100000x64, .f32⟩
  | .hbm, ⟨26, _⟩ => ⟨S_, .i32⟩
  | .hbm, ⟨27, _⟩ => ⟨S1250000, .i32⟩
  | .hbm, ⟨28, _⟩ => ⟨S1250000, .i1⟩
  | .hbm, ⟨29, _⟩ => ⟨S_, .i32⟩
  | .hbm, ⟨30, _⟩ => ⟨S1250000, .i32⟩
  | .hbm, ⟨31, _⟩ => ⟨S1250000, .i32⟩
  | .hbm, ⟨32, _⟩ => ⟨S1250000, .i32⟩
  | .hbm, ⟨33, _⟩ => ⟨S1250000x1, .i32⟩
  | .hbm, ⟨34, _⟩ => ⟨S1250000x64, .f32⟩
  | .hbm, ⟨35, _⟩ => ⟨S_, .f32⟩
  | .hbm, ⟨36, _⟩ => ⟨S100000x64, .f32⟩
  | .hbm, ⟨37, _⟩ => ⟨S1250000x1, .i32⟩
  | .hbm, ⟨38, _⟩ => ⟨S100000x64, .f32⟩
  | .hbm, ⟨39, _⟩ => ⟨S64x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x64_S64x64_S100000x64_1_0_0_1_n_n_wf : DotDims.WF S100000x64 S64x64 S100000x64 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Layer.lean ====
/-
  The dense half of one layer, as ONE function of whole arrays on the extended reals.

  For aggregated node features `A` (100000 × 64), a weight `W` (64 × 64) and a bias `b` (64),
  `affine A W b (i, j) = Σ_k A[i, k] · W[j, k] + b[j]`: each node's feature row against each ROW of the weight
  (the product with the weight transposed), plus the bias entry of the output column. Both programs compute this
  function of the same aggregated features; nothing here mentions either program.
-/
import Idealize.ShloMosaic.Lib.ValueIdx
import Idealize.ShloMosaic.PureOps.Ideal

noncomputable section

namespace Cert.Layer

open Idealize.ShloMosaic Idealize.ShloMosaic.ValueIdx

/-- Node features: one row of 64 per node. -/
abbrev SNodes : Shape := ⟨2, ![100000, 64]⟩
/-- The weight of the linear map, output column by input column. -/
abbrev SWeight : Shape := ⟨2, ![64, 64]⟩
/-- The bias, one entry per output column. -/
abbrev SBias : Shape := ⟨1, ![64]⟩
/-- The bias laid out as a single row. -/
abbrev SBiasRow : Shape := ⟨2, ![1, 64]⟩

/-- `affine A W b (i, j) = Σ_k A[i, k] · W[j, k] + b[j]`. -/
def affine (A : SNodes.Idx → EReal) (W : SWeight.Idx → EReal) (b : SBias.Idx → EReal) : SNodes.Idx → EReal :=
  fun i => (∑ k : Fin 64, A (ix2 (n0 := 100000) (i 0) k) * W (ix2 (n0 := 64) (i 1) k)) + b (ix1 (n := 64) (i 1))

/-- The bias read off its row layout: entry `j` is the row's column `j`. -/
def rowBias (B : SBiasRow.Idx → EReal) : SBias.Idx → EReal := fun j => B (ix2 (n0 := 1) 0 (j 0))

/-- A sum of products plus a bias entry IS `affine` at `i` when the factors are read where `affine` reads them: the
    feature at row `i 0`, the weight at row `i 1`, both at column `k`, and the bias row at column `i 1`. The positions
    are given by their coordinates' values, so that a block's coordinates inside a larger array can be supplied. -/
theorem affine_of_reads (A : SNodes.Idx → EReal) (W : SWeight.Idx → EReal) (B : SBiasRow.Idx → EReal) (i : SNodes.Idx)
    (a : Fin 64 → SNodes.Idx) (w : Fin 64 → SWeight.Idx) (r : SBiasRow.Idx)
    (ha : ∀ k, (a k 0).val = (i 0).val ∧ (a k 1).val = k.val)
    (hw : ∀ k, (w k 0).val = (i 1).val ∧ (w k 1).val = k.val)
    (hr : (r 0).val = 0 ∧ (r 1).val = (i 1).val) :
    (∑ k : Fin 64, A (a k) * W (w k)) + B r = affine A W (rowBias B) i := by
  unfold affine rowBias
  have ea : ∀ k, a k = ix2 (n0 := 100000) (i 0) k := fun k => funext fun d => Fin.ext (by
    match d with
    | ⟨0, _⟩ => exact (ha k).1
    | ⟨1, _⟩ => exact (ha k).2)
  have ew : ∀ k, w k = ix2 (n0 := 64) (i 1) k := fun k => funext fun d => Fin.ext (by
    match d with
    | ⟨0, _⟩ => exact (hw k).1
    | ⟨1, _⟩ => exact (hw k).2)
  have er : r = ix2 (n0 := 1) 0 (i 1) := funext fun d => Fin.ext (by
    match d with
    | ⟨0, _⟩ => exact hr.1
    | ⟨1, _⟩ => exact hr.2)
  rw [er]
  refine congrArg₂ (· + ·) (Finset.sum_congr rfl fun k _ => ?_) rfl
  rw [ea k, ew k]

end Cert.Layer

end
-- ==== Proof.RefLayer.lean ====
/-
  The reference's two layers as the affine layer of aggregated features.

  `aggregate h e` is the sparse half of a layer: the edge list `e` (2 × 1250000) gives each edge a source row and a
  destination row; the source rows (a negative one counted from the end) select rows of `h`, and each selected row is
  added into its destination row of an all-zero 100000 × 64 array. It is never opened: both programs apply this one
  function, so all that matters is what it is applied to.

  The dense half follows: the reference multiplies the aggregated features by the transposed weight, contracting the
  features' columns against the transposed weight's rows, and adds the bias repeated down the rows. At row `i 0`,
  column `i 1` that is `Σ_k A[i 0, k] · W[i 1, k] + b[i 1]`, which is `affine`. The second layer does the same to the
  first layer's result.
-/
import proofs.«145430_j31233002176551_1_alg».proof.Proof.Gen.ReferenceIdeal.Read
import proofs.«145430_j31233002176551_1_alg».proof.Proof.Layer

noncomputable section

namespace Cert.ReferenceIdeal.RefLayer

open Cert.ReferenceIdeal Cert.ReferenceIdeal.Gen Cert.ReferenceIdeal.Read Idealize.ShloMosaic Idealize.ShloMosaic.ValueIdx

/-- Scatter-add into zeros, at destination rows `d`, of the rows of `h` selected by source rows `s` (a negative source
    row is counted from the end). -/
def aggregateRows (h : (⟨S100000x64, .f32⟩ : BufTy).Contents (Elt Ideal)) (s d : (⟨S1250000, .i32⟩ : BufTy).Contents (Elt Ideal)) :
    (⟨S100000x64, .f32⟩ : BufTy).Contents (Elt Ideal) :=
  Host.scatterAdd (F := Ideal) scatter_S100000x64_S1250000x1_S1250000x64_1_0_0_1
    (broadcastInDim S100000x64 ![] bcast_S_S100000x64 (constant (F := Ideal) S_ .f32 0x00000000#32))
    (broadcastInDim S1250000x1 ![0] bcast_S1250000_S1250000x1_0 d)
    (Host.gather gather_S100000x64_S1250000x1_S1250000x64_1_0_n_n_0_1_164 h
      (broadcastInDim S1250000x1 ![0] bcast_S1250000_S1250000x1_0
        (select (cmpi .slt s (broadcastInDim S1250000 ![] bcast_S_S1250000 (constantI S_ 32 0#32)))
          (addi s (broadcastInDim S1250000 ![] bcast_S_S1250000 (constantI S_ 32 100000#32))) s)))

/-- The edges' source rows: row 0 of the edge list. -/
def sourceRows (e : (⟨S2x1250000, .i32⟩ : BufTy).Contents (Elt Ideal)) : (⟨S1250000, .i32⟩ : BufTy).Contents (Elt Ideal) :=
  val_main_v1 (F := Ideal) e

/-- The edges' destination rows: row 1 of the edge list. -/
def destRows (e : (⟨S2x1250000, .i32⟩ : BufTy).Contents (Elt Ideal)) : (⟨S1250000, .i32⟩ : BufTy).Contents (Elt Ideal) :=
  val_main_v3 (F := Ideal) e

/-- The sparse half of a layer: `h`'s rows summed along the edges `e`. -/
def aggregate (h : (⟨S100000x64, .f32⟩ : BufTy).Contents (Elt Ideal)) (e : (⟨S2x1250000, .i32⟩ : BufTy).Contents (Elt Ideal)) :
    (⟨S100000x64, .f32⟩ : BufTy).Contents (Elt Ideal) :=
  aggregateRows h (sourceRows e) (destRows e)

/-- The first layer aggregates the input features. -/
theorem first_aggregate (x0 : (⟨S100000x64, .f32⟩ : BufTy).Contents (Elt Ideal)) (x1 : (⟨S2x1250000, .i32⟩ : BufTy).Contents (Elt Ideal)) :
    val_main_v13 (F := Ideal) x0 x1 = aggregate x0 x1 := rfl

/-- The second layer aggregates the first layer's result along the same edges. -/
theorem second_aggregate (x0 : (⟨S100000x64, .f32⟩ : BufTy).Contents (Elt Ideal)) (x1 : (⟨S2x1250000, .i32⟩ : BufTy).Contents (Elt Ideal))
    (x2 : (⟨S64x64, .f32⟩ : BufTy).Contents (Elt Ideal)) (x3 : (⟨S64, .f32⟩ : BufTy).Contents (Elt Ideal)) :
    val_main_v28 (F := Ideal) x0 x1 x2 x3 = aggregate (val_main_v18 (F := Ideal) x0 x1 x2 x3) x1 := rfl

/-! The positions the dense half reads, as `affine` spells them. -/

theorem feature_pos (i : S100000x64.Idx) (k : Fin 64) : lidx_main_v15 i k = ix2 (n0 := 100000) (i 0) k :=
  funext fun a => by match a with | ⟨0, _⟩ => rfl | ⟨1, _⟩ => rfl
theorem weight_pos (i : S100000x64.Idx) (k : Fin 64) : idx_main_v14 (ridx_main_v15 i k) = ix2 (n0 := 64) (i 1) k :=
  funext fun a => by match a with | ⟨0, _⟩ => rfl | ⟨1, _⟩ => rfl
theorem bias_pos (i : S100000x64.Idx) : idx_main_v16 (idx_main_v17 i) = ix1 (n := 64) (i 1) :=
  funext fun a => by match a with | ⟨0, _⟩ => rfl
theorem feature_pos' (i : S100000x64.Idx) (k : Fin 64) : lidx_main_v30 i k = ix2 (n0 := 100000) (i 0) k :=
  funext fun a => by match a with | ⟨0, _⟩ => rfl | ⟨1, _⟩ => rfl
theorem weight_pos' (i : S100000x64.Idx) (k : Fin 64) : idx_main_v29 (ridx_main_v30 i k) = ix2 (n0 := 64) (i 1) k :=
  funext fun a => by match a with | ⟨0, _⟩ => rfl | ⟨1, _⟩ => rfl
theorem bias_pos' (i : S100000x64.Idx) : idx_main_v31 (idx_main_v32 i) = ix1 (n := 64) (i 1) :=
  funext fun a => by match a with | ⟨0, _⟩ => rfl

/-- The first layer's result is the affine layer of the aggregated input features. -/
theorem first_layer (x0 : (⟨S100000x64, .f32⟩ : BufTy).Contents (Elt Ideal)) (x1 : (⟨S2x1250000, .i32⟩ : BufTy).Contents (Elt Ideal))
    (x2 : (⟨S64x64, .f32⟩ : BufTy).Contents (Elt Ideal)) (x3 : (⟨S64, .f32⟩ : BufTy).Contents (Elt Ideal)) :
    val_main_v18 (F := Ideal) x0 x1 x2 x3 = Cert.Layer.affine (aggregate x0 x1) x2 x3 := by
  funext i
  rw [val_main_v18_apply, val_main_v15_apply, val_main_v17_apply, val_main_v16_apply, first_aggregate]
  simp only [val_main_v14_apply, feature_pos, weight_pos, bias_pos]
  rfl

/-- The second layer's result is the affine layer of the aggregated first-layer result. -/
theorem second_layer (x0 : (⟨S100000x64, .f32⟩ : BufTy).Contents (Elt Ideal)) (x1 : (⟨S2x1250000, .i32⟩ : BufTy).Contents (Elt Ideal))
    (x2 : (⟨S64x64, .f32⟩ : BufTy).Contents (Elt Ideal)) (x3 : (⟨S64, .f32⟩ : BufTy).Contents (Elt Ideal)) :
    val_main_v33 (F := Ideal) x0 x1 x2 x3
      = Cert.Layer.affine (aggregate (Cert.Layer.affine (aggregate x0 x1) x2 x3) x1) x2 x3 := by
  funext i
  rw [val_main_v33_apply, val_main_v30_apply, val_main_v32_apply, val_main_v31_apply, second_aggregate, first_layer]
  simp only [val_main_v29_apply, feature_pos', weight_pos', bias_pos']
  rfl

end Cert.ReferenceIdeal.RefLayer

end
-- ==== Proof.LibMatmulNT.lean ====
/-
  A matrix product with the right operand transposed, read at an index on the extended reals.

  For `A : [M, K]` and `B : [N, K]`, a product that contracts the LAST axis of both operands (dimension numbers
  `contracting [1] × [1]`, `non-contracting [0] × [0]`, no batch axes: `A · Bᵀ`, what `lax.dot_general` with
  `(((1,), (1,)), ((), ()))` lowers to) into a zero accumulator is, at `(i, j)`, the finite sum
  `Σ_k A[i, k] · B[j, k]` over `k : Fin K`. Stated for ANY record with those dimension numbers, whatever the extents
  and the operands' float formats, so that it applies to a printed record by its six list fields (each `rfl`).
-/
import Idealize.ShloMosaic.Lib.ValueIdx
import Idealize.ShloMosaic.PureOps.Ideal.Laws

noncomputable section

namespace Cert.LibMatmulNT

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![N, K]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's row is the result's column. -/
theorem rhsIdx_row (d : DotDims ⟨2, ![M, K]⟩ ⟨2, ![N, K]⟩ ⟨2, ![M, N]⟩)
    (hlb : d.lhsBatch = []) (hrb : d.rhsBatch = []) (hln : d.lhsNonContracting = [0]) (hrn : d.rhsNonContracting = [0])
    (j : (⟨2, ![M, N]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![N, K]⟩ ⟨2, ![M, N]⟩) (hlc : d.lhsContracting = [1]) :
    d.contr.rank = 1 := by
  rw [d.rank_contr, hlc]; rfl

theorem contr_size (d : DotDims ⟨2, ![M, K]⟩ ⟨2, ![N, K]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · Bᵀ` into a zero accumulator, at `(i, j)`, is `Σ_k A[i, k] · B[j, k]`. -/
theorem matmul_nt_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision) (A : FVec Ideal ⟨2, ![M, K]⟩ φ₁) (B : FVec Ideal ⟨2, ![N, K]⟩ φ₂)
    (i : Fin M) (j : Fin N) :
    matmul d prec A B (constant ⟨2, ![M, N]⟩ .f32 0x00000000#32) (ix2 i j) = ∑ k : Fin K, A (ix2 i k) * B (ix2 j k) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 j k := funext fun a => Fin.ext (by
    match a with
    | ⟨0, _⟩ => exact rhsIdx_row d hlb hrb hln hrn _ _
    | ⟨1, _⟩ => exact (d.rhsIdx_val_of_single hrc _ _).trans hk)
  rw [el, er]

end Cert.LibMatmulNT

end
-- ==== Proof.PointValue.lean ====
/-
  What one grid point of the dense kernel stores, read at an index on the extended reals.

  A point loads a block `X` of 5000 rows of the aggregated features, the whole weight `W` (64 × 64) and the bias as a
  row `B` (1 × 64), and stores `X · Wᵀ + B`: the product contracts the last axis of both operands into a zero
  accumulator, the two narrowings to bf16 before it are the identity on extended reals, and the bias row is repeated
  down the block's rows. So the stored block holds, at row `p` and column `q`,
  `Σ_k X[p, k] · W[q, k] + B[0, q]`. The two pallas calls print the same body, so the second payload is the first.
-/
import proofs.«145430_j31233002176551_1_alg».proof.Proof.Gen.KernelIdeal.Skeleton
import proofs.«145430_j31233002176551_1_alg».proof.Proof.LibMatmulNT
import Idealize.ShloMosaic.Lib.Pipeline.Value
import Idealize.ShloMosaic.Lib.ValueIdx
import Idealize.ShloMosaic.PureOps.Ideal.Laws

noncomputable section

namespace Cert.KernelIdeal.PointValue

open Cert.KernelIdeal Cert.KernelIdeal.Gen Idealize.ShloMosaic Idealize.ShloMosaic.ValueIdx

/-- The bias row repeated down the block's rows holds, at `(p, q)`, the row's entry `q`. -/
theorem bias_row_apply (x2 : Vec Ideal S1x64 .f32) (h1 : S1x64.ShapeCasts S1x64) (h2 : S1x64.Broadcasts S5000x64)
    (p : Fin 5000) (q : Fin 64) :
    broadcastTo S5000x64 (shapeCast S1x64 x2 h1) h2 (ix2 p q) = x2 (ix2 0 q) := by
  rw [shapeCast_self]
  refine broadcastTo_apply _ _ _ (ix2 0 q) fun a => ?_
  match a with
  | ⟨0, _⟩ => rfl
  | ⟨1, _⟩ => rfl

/-- The first call's stored block at `(p, q)`: row `p` of the features against row `q` of the weight, plus the bias. -/
theorem stored0_apply (x0 : Vec Ideal S5000x64 .f32) (x1 : Vec Ideal S64x64 .f32) (x2 : Vec Ideal S1x64 .f32)
    (p : Fin 5000) (q : Fin 64) :
    k0_pay1 (F := Ideal) x0 x1 x2 (ix2 p q) = (∑ k : Fin 64, x0 (ix2 p k) * x1 (ix2 q k)) + x2 (ix2 0 q) := by
  unfold k0_pay1
  refine (addf_apply _ _ _).trans ?_
  refine congrArg₂ (· + ·) ?_ (bias_row_apply x2 _ _ p q)
  rw [shapeCast_self]
  exact Cert.LibMatmulNT.matmul_nt_apply (φ₁ := .bf16) (φ₂ := .bf16) dot_S5000x64_S64x64_S5000x64_1_1_0_0_n_n
    rfl rfl rfl rfl rfl rfl none _ _ p q

/-- The second call prints the same body. -/
theorem stored1_eq (x0 : Vec Ideal S5000x64 .f32) (x1 : Vec Ideal S64x64 .f32) (x2 : Vec Ideal S1x64 .f32) :
    k1_pay1 (F := Ideal) x0 x1 x2 = k0_pay1 (F := Ideal) x0 x1 x2 := rfl

/-- So its stored block reads the same. -/
theorem stored1_apply (x0 : Vec Ideal S5000x64 .f32) (x1 : Vec Ideal S64x64 .f32) (x2 : Vec Ideal S1x64 .f32)
    (p : Fin 5000) (q : Fin 64) :
    k1_pay1 (F := Ideal) x0 x1 x2 (ix2 p q) = (∑ k : Fin 64, x0 (ix2 p k) * x1 (ix2 q k)) + x2 (ix2 0 q) := by
  rw [stored1_eq]; exact stored0_apply x0 x1 x2 p q

end Cert.KernelIdeal.PointValue

end
-- ==== Proof.Region0.lean ====
/-
  The first pallas call's result array, as the affine layer of the arrays the call finds.

  The call walks 20 grid points; point `t` stages rows `5000 t … 5000 t + 4999` of the aggregated features, the whole
  weight and the whole bias row, and writes back rows `5000 t … 5000 t + 4999` of the result. What it writes back is the
  body's stored block, which at row `p`, column `q` of the block is `Σ_k X[p, k] · W[q, k] + B[0, q]` of the staged
  blocks; read where those blocks sit in their arrays this is `affine` of the whole arrays at row `5000 t + p`, column
  `q`. The 20 row blocks cover the result (row `r` lies in block `r / 5000`), so the result array IS that function.
  All of it holds for any contents `V` the call may find on entry.
-/
import proofs.«145430_j31233002176551_1_alg».proof.Proof.Gen.KernelIdeal.Frame
import proofs.«145430_j31233002176551_1_alg».proof.Proof.PointValue
import proofs.«145430_j31233002176551_1_alg».proof.Proof.Layer
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The result array the call leaves: the affine layer of the features, weight and bias row it finds. -/
def result (c : Dev nD) : S100000x64.Idx → Elt Ideal .f32 :=
  Cert.Layer.affine (V c main_v13) (V c main_arg2) (Cert.Layer.rowBias (V c main_v14))

/-- Where the windows sit at point `t`, decided over the grid: the features' and the result's block is row block `t`,
    the weight's and the bias row's is the whole array. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `result`. -/
theorem flushed_eq (c : Dev nD) (t : Fin cfg0.N) :
    (dat0 V c).flushed 3 t = ((cfg0.win 3).blk t).view.read (Elt Ideal) (result V c) := by
  show (cfg0.win 3).cut (grid0.coords t) ((dat0 V c).after 3 t) = _
  rw [after0_3]
  unfold out0_3
  rw [View.canon_unit_zero zero_offsets]
  simp only [View.ld_unit_zero (S := S5000x64) zero_offsets, View.ld_unit_zero (S := S64x64) zero_offsets,
    View.ld_unit_zero (S := S1x64) zero_offsets]
  obtain ⟨e00, e01, e10, e11, e20, e21, e30, e31⟩ := block_index t
  funext j
  obtain ⟨p, q, rfl⟩ : ∃ (p : Fin 5000) (q : Fin 64), j = ix2 p q := ⟨j 0, j 1, eq_ix2 j⟩
  show k0_pay1 (iblk0 V c 0 t) (iblk0 V c 1 t) (iblk0 V c 2 t) (ix2 p q)
    = result V c (((cfg0.win 3).blk t).view.emb (ix2 p q))
  refine (Cert.KernelIdeal.PointValue.stored0_apply _ _ _ p q).trans ?_
  unfold result
  refine Cert.Layer.affine_of_reads (V c main_v13) (V c main_arg2) (V c main_v14) _
    (fun k => ((cfg0.win 0).blk t).view.emb (ix2 p k)) (fun k => ((cfg0.win 1).blk t).view.emb (ix2 q k))
    (((cfg0.win 2).blk t).view.emb (ix2 0 q)) (fun k => ⟨?_, ?_⟩) (fun k => ⟨?_, ?_⟩) ⟨?_, ?_⟩
  · show win0_0.index t (0 : Fin 2) * 5000 + 1 * p.val = win0_3.index t (0 : Fin 2) * 5000 + 1 * p.val
    omega
  · show win0_0.index t (1 : Fin 2) * 64 + 1 * k.val = k.val
    omega
  · show win0_1.index t (0 : Fin 2) * 64 + 1 * q.val = win0_3.index t (1 : Fin 2) * 64 + 1 * q.val
    omega
  · show win0_1.index t (1 : Fin 2) * 64 + 1 * k.val = k.val
    omega
  · show win0_2.index t (0 : Fin 2) * 1 + 1 * 0 = 0
    omega
  · show win0_2.index t (1 : Fin 2) * 64 + 1 * q.val = win0_3.index t (1 : Fin 2) * 64 + 1 * q.val
    omega

/-- An index of the result lies in point `t`'s block iff each coordinate lies in the block's range on its axis. -/
theorem mem_block (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v15).slice (win0_3.rect t)).set ↔ _
  rw [View.set_slice_whole, Rect.mem_set_unit]
  exact Iff.rfl

/-- Every row of the result lies in some point's block: row `r` in block `r / 5000`. -/
theorem covered (i : S100000x64.Idx) :
    ∃ t : Fin cfg0.N, (cfg0.win 3).flush t = true ∧ i ∈ ((cfg0.win 3).blk t).view.set := by
  have hN : grid0.N = 20 := N_0
  have hi0 : (i 0).val < 100000 := (i 0).isLt
  have hi1 : (i 1).val < 64 := (i 1).isLt
  have ht : (i 0).val / 5000 < cfg0.N := by show (i 0).val / 5000 < grid0.N; rw [hN]; omega
  refine ⟨⟨(i 0).val / 5000, ht⟩, flush0_3 _, ?_⟩
  rw [mem_block]
  obtain ⟨e00, e01, e10, e11, e20, e21, e30, e31⟩ := block_index ⟨(i 0).val / 5000, ht⟩
  have e30' : win0_3.index ⟨(i 0).val / 5000, ht⟩ (0 : Fin 2) = (i 0).val / 5000 := e30
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e30']; omega
  | ⟨1, _⟩ =>
    show win0_3.index ⟨(i 0).val / 5000, ht⟩ (1 : Fin 2) * 64 ≤ (i 1).val
      ∧ (i 1).val < win0_3.index ⟨(i 0).val / 5000, ht⟩ (1 : Fin 2) * 64 + 64
    rw [e31]; omega

/-- The result array after the call's last point is `result`. -/
theorem final (c : Dev nD) : (dat0 V c).arrAt 3 cfg0.N = result V c :=
  (dat0 V c).arrAt_eq_of_cover 3 (result V c) (fun t _ => flushed_eq V c t) covered

end Cert.KernelIdeal.Region0

end
-- ==== Proof.Region1.lean ====
/-
  The second pallas call's result array, as the affine layer of the arrays the call finds.

  The call walks 20 grid points; point `t` stages rows `5000 t … 5000 t + 4999` of the aggregated features, the whole
  weight and the whole bias row, and writes back rows `5000 t … 5000 t + 4999` of the result. What it writes back is the
  body's stored block, which at row `p`, column `q` of the block is `Σ_k X[p, k] · W[q, k] + B[0, q]` of the staged
  blocks; read where those blocks sit in their arrays this is `affine` of the whole arrays at row `5000 t + p`, column
  `q`. The 20 row blocks cover the result (row `r` lies in block `r / 5000`), so the result array IS that function.
  All of it holds for any contents `V` the call may find on entry.
-/
import proofs.«145430_j31233002176551_1_alg».proof.Proof.Gen.KernelIdeal.Frame
import proofs.«145430_j31233002176551_1_alg».proof.Proof.PointValue
import proofs.«145430_j31233002176551_1_alg».proof.Proof.Layer
import Idealize.ShloMosaic.Lib.Pipeline.Value

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The result array the call leaves: the affine layer of the features, weight and bias row it finds. -/
def result (c : Dev nD) : S100000x64.Idx → Elt Ideal .f32 :=
  Cert.Layer.affine (V c main_v25) (V c main_arg2) (Cert.Layer.rowBias (V c main_v26))

/-- Where the windows sit at point `t`, decided over the grid: the features' and the result's block is row block `t`,
    the weight's and the bias row's is the whole array. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `result`. -/
theorem flushed_eq (c : Dev nD) (t : Fin cfg1.N) :
    (dat1 V c).flushed 3 t = ((cfg1.win 3).blk t).view.read (Elt Ideal) (result V c) := by
  show (cfg1.win 3).cut (grid1.coords t) ((dat1 V c).after 3 t) = _
  rw [after1_3]
  unfold out1_3
  rw [View.canon_unit_zero zero_offsets]
  simp only [View.ld_unit_zero (S := S5000x64) zero_offsets, View.ld_unit_zero (S := S64x64) zero_offsets,
    View.ld_unit_zero (S := S1x64) zero_offsets]
  obtain ⟨e00, e01, e10, e11, e20, e21, e30, e31⟩ := block_index t
  funext j
  obtain ⟨p, q, rfl⟩ : ∃ (p : Fin 5000) (q : Fin 64), j = ix2 p q := ⟨j 0, j 1, eq_ix2 j⟩
  show k1_pay1 (iblk1 V c 0 t) (iblk1 V c 1 t) (iblk1 V c 2 t) (ix2 p q)
    = result V c (((cfg1.win 3).blk t).view.emb (ix2 p q))
  refine (Cert.KernelIdeal.PointValue.stored1_apply _ _ _ p q).trans ?_
  unfold result
  refine Cert.Layer.affine_of_reads (V c main_v25) (V c main_arg2) (V c main_v26) _
    (fun k => ((cfg1.win 0).blk t).view.emb (ix2 p k)) (fun k => ((cfg1.win 1).blk t).view.emb (ix2 q k))
    (((cfg1.win 2).blk t).view.emb (ix2 0 q)) (fun k => ⟨?_, ?_⟩) (fun k => ⟨?_, ?_⟩) ⟨?_, ?_⟩
  · show win1_0.index t (0 : Fin 2) * 5000 + 1 * p.val = win1_3.index t (0 : Fin 2) * 5000 + 1 * p.val
    omega
  · show win1_0.index t (1 : Fin 2) * 64 + 1 * k.val = k.val
    omega
  · show win1_1.index t (0 : Fin 2) * 64 + 1 * q.val = win1_3.index t (1 : Fin 2) * 64 + 1 * q.val
    omega
  · show win1_1.index t (1 : Fin 2) * 64 + 1 * k.val = k.val
    omega
  · show win1_2.index t (0 : Fin 2) * 1 + 1 * 0 = 0
    omega
  · show win1_2.index t (1 : Fin 2) * 64 + 1 * q.val = win1_3.index t (1 : Fin 2) * 64 + 1 * q.val
    omega

/-- An index of the result lies in point `t`'s block iff each coordinate lies in the block's range on its axis. -/
theorem mem_block (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v27).slice (win1_3.rect t)).set ↔ _
  rw [View.set_slice_whole, Rect.mem_set_unit]
  exact Iff.rfl

/-- Every row of the result lies in some point's block: row `r` in block `r / 5000`. -/
theorem covered (i : S100000x64.Idx) :
    ∃ t : Fin cfg1.N, (cfg1.win 3).flush t = true ∧ i ∈ ((cfg1.win 3).blk t).view.set := by
  have hN : grid1.N = 20 := N_1
  have hi0 : (i 0).val < 100000 := (i 0).isLt
  have hi1 : (i 1).val < 64 := (i 1).isLt
  have ht : (i 0).val / 5000 < cfg1.N := by show (i 0).val / 5000 < grid1.N; rw [hN]; omega
  refine ⟨⟨(i 0).val / 5000, ht⟩, flush1_3 _, ?_⟩
  rw [mem_block]
  obtain ⟨e00, e01, e10, e11, e20, e21, e30, e31⟩ := block_index ⟨(i 0).val / 5000, ht⟩
  have e30' : win1_3.index ⟨(i 0).val / 5000, ht⟩ (0 : Fin 2) = (i 0).val / 5000 := e30
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e30']; omega
  | ⟨1, _⟩ =>
    show win1_3.index ⟨(i 0).val / 5000, ht⟩ (1 : Fin 2) * 64 ≤ (i 1).val
      ∧ (i 1).val < win1_3.index ⟨(i 0).val / 5000, ht⟩ (1 : Fin 2) * 64 + 64
    rw [e31]; omega

/-- The result array after the call's last point is `result`. -/
theorem final (c : Dev nD) : (dat1 V c).arrAt 3 cfg1.N = result V c :=
  (dat1 V c).arrAt_eq_of_cover 3 (result V c) (fun t _ => flushed_eq V c t) covered

end Cert.KernelIdeal.Region1

end
-- ==== Proof.KernelRun.lean ====
/-
  The kernel's run, read: what its two result arrays hold when it returns.

  The program is four stretches in a row: host operations that aggregate the input features along the edges and lay
  the bias out as a row; the first pallas call; host operations that aggregate the first call's result along the same
  edges; the second pallas call. The contents of every buffer at each boundary are a fold through these stretches:
  a host stretch applies its operations, a call replaces its result array by what its write-backs leave and keeps
  every other buffer. Every weakly fair execution terminates with every buffer at the last boundary's contents, so
  the first result is the first call's result array carried unchanged through the rest, and the second result is the
  second call's result array. Reading the entry contents of each call off the host stretch before it:

    hidden = affine (aggregate x e) W b          out = affine (aggregate hidden e) W b

  with `aggregate` and `affine` the functions the reference is read with.
-/
import proofs.«145430_j31233002176551_1_alg».proof.Proof.Gen.KernelIdeal.Frame
import proofs.«145430_j31233002176551_1_alg».proof.Proof.Region0
import proofs.«145430_j31233002176551_1_alg».proof.Proof.Region1
import proofs.«145430_j31233002176551_1_alg».proof.Proof.RefLayer
import Idealize.ShloMosaic.Lib.StableHlo.Run
import Idealize.ShloMosaic.Lib.Pipeline.Value

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## Every execution ends with every buffer at the last boundary's contents -/

set_option backward.isDefEq.respectTransparency.types false in
/-- Every weakly fair execution terminates, nothing faulting, and any property of the final memory that follows from
    "every unscoped buffer holds the last boundary's contents" holds of it. -/
theorem run_reads {Q : PUnit × MemSt nD τ sig (Elt Ideal) → Prop}
    (hQ : ∀ s : MemSt nD τ sig (Elt Ideal),
      (∀ c : Dev nD, ∀ b ∈ Pipeline.ucRefs τ sig, s.mem (((c : Thread nD τ)).1, b) = W4 m ρ c b) → Q (⟨⟩, s)) :
    θ_run defs (onTc (τ := τ) (main (F := Ideal))) ⟨m, fun _ => 0, ρ⟩ Q :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-! ## The arrays each call finds, and what the program returns -/

open Cert.ReferenceIdeal.RefLayer (aggregate aggregateRows sourceRows destRows)
open Cert.Layer (affine rowBias)

/-- The first layer's result as a function of the program's arguments on core `c`. -/
def hidden (c : Dev nD) : S100000x64.Idx → Elt Ideal .f32 :=
  affine (aggregate (m ((c : Thread nD τ).loc main_arg0)) (m ((c : Thread nD τ).loc main_arg1)))
    (m ((c : Thread nD τ).loc main_arg2)) (m ((c : Thread nD τ).loc main_arg3))

/-- The second layer's result: the same layer applied to the first layer's result, along the same edges. -/
def out (c : Dev nD) : S100000x64.Idx → Elt Ideal .f32 :=
  affine (aggregate (hidden m c) (m ((c : Thread nD τ).loc main_arg1)))
    (m ((c : Thread nD τ).loc main_arg2)) (m ((c : Thread nD τ).loc main_arg3))

/-- After the first host stretch the edges' source rows sit in their own buffer, -/
theorem source_rows (c : Dev nD) :
    (W1 m ρ c (Proc.devRef .tc main_v1) : S1250000.Idx → Elt Ideal .i32) = sourceRows (m ((c : Thread nD τ).loc main_arg1)) := by
  show StableHlo.after hostOps0 (W0 m ρ c) (Proc.devRef .tc main_v1) = _
  after_results
  rfl

/-- and so do the destination rows. -/
theorem dest_rows (c : Dev nD) :
    (W1 m ρ c (Proc.devRef .tc main_v3) : S1250000.Idx → Elt Ideal .i32) = destRows (m ((c : Thread nD τ).loc main_arg1)) := by
  show StableHlo.after hostOps0 (W0 m ρ c) (Proc.devRef .tc main_v3) = _
  after_results
  rfl

/-- The first call finds the input features aggregated along the edges, -/
theorem entry0_features (c : Dev nD) :
    (V1 m ρ c main_v13 : S100000x64.Idx → Elt Ideal .f32)
      = aggregate (m ((c : Thread nD τ).loc main_arg0)) (m ((c : Thread nD τ).loc main_arg1)) := by
  show StableHlo.after hostOps0 (W0 m ρ c) (Proc.devRef .tc main_v13) = _
  after_results
  rfl

/-- the weight as launched, -/
theorem entry0_weight (c : Dev nD) :
    (V1 m ρ c main_arg2 : S64x64.Idx → Elt Ideal .f32) = m ((c : Thread nD τ).loc main_arg2) := by
  show StableHlo.after hostOps0 (W0 m ρ c) (Proc.devRef .tc main_arg2) = _
  after_results

/-- A bias laid out as a row reads back as the bias. -/
theorem rowBias_reshape (b : S64.Idx → Elt Ideal .f32) (h : S64.ShapeCasts S1x64) :
    rowBias (shapeCast S1x64 b h) = b := by
  funext j
  obtain ⟨q, rfl⟩ : ∃ q : Fin 64, j = ix1 q := ⟨j 0, eq_ix1 j⟩
  show shapeCast S1x64 b h (ix2 0 q) = b (ix1 q)
  exact shapeCast_apply b h (ix2 0 q) (ix1 q)
    (by rewrite [Shape.rowMajor_val_two, Shape.rowMajor_val_one]; show q.val = 0 * 64 + q.val; omega)

/-- and the bias laid out as a row. -/
theorem entry0_bias (c : Dev nD) :
    rowBias (V1 m ρ c main_v14 : S1x64.Idx → Elt Ideal .f32) = m ((c : Thread nD τ).loc main_arg3) := by
  have e : (V1 m ρ c main_v14 : S1x64.Idx → Elt Ideal .f32)
      = shapeCast S1x64 (m ((c : Thread nD τ).loc main_arg3) : S64.Idx → Elt Ideal .f32) shapeCasts_S64_S1x64 := by
    show StableHlo.after hostOps0 (W0 m ρ c) (Proc.devRef .tc main_v14) = _
    after_results
    rfl
  rw [e]; exact rowBias_reshape _ _

/-- So the first call leaves the first layer's result in its result array, -/
theorem hidden_eq (c : Dev nD) : W2 m ρ c (Proc.devRef .tc main_v15) = hidden m c := by
  refine (W2_arr m ρ c 3).trans ((Cert.KernelIdeal.Region0.final (V1 m ρ) c).trans ?_)
  unfold Cert.KernelIdeal.Region0.result hidden
  rw [entry0_features, entry0_weight, entry0_bias]

/-- which nothing later writes. -/
theorem hidden_kept (c : Dev nD) : W4 m ρ c (Proc.devRef .tc main_v15) = W2 m ρ c (Proc.devRef .tc main_v15) := by
  refine (W4_of_ne m ρ c main_v15 (by decide)).trans ?_
  show StableHlo.after hostOps1 (W2 m ρ c) (Proc.devRef .tc main_v15) = _
  after_results

/-- The second call finds the first layer's result aggregated along the same edges, -/
theorem entry1_features (c : Dev nD) :
    (V3 m ρ c main_v25 : S100000x64.Idx → Elt Ideal .f32) = aggregate (hidden m c) (m ((c : Thread nD τ).loc main_arg1)) := by
  have e : (V3 m ρ c main_v25 : S100000x64.Idx → Elt Ideal .f32)
      = aggregateRows (W2 m ρ c (Proc.devRef .tc main_v15)) (W2 m ρ c (Proc.devRef .tc main_v1)) (W2 m ρ c (Proc.devRef .tc main_v3)) := by
    show StableHlo.after hostOps1 (W2 m ρ c) (Proc.devRef .tc main_v25) = _
    after_results
    rfl
  rw [e, hidden_eq, show W2 m ρ c (Proc.devRef .tc main_v1) = _ from (W2_of_ne m ρ c main_v1 (by decide)).trans (source_rows m ρ c),
    show W2 m ρ c (Proc.devRef .tc main_v3) = _ from (W2_of_ne m ρ c main_v3 (by decide)).trans (dest_rows m ρ c)]
  rfl

/-- the weight as launched (the first call only read it), -/
theorem entry1_weight (c : Dev nD) :
    (V3 m ρ c main_arg2 : S64x64.Idx → Elt Ideal .f32) = m ((c : Thread nD τ).loc main_arg2) := by
  have e : V3 m ρ c main_arg2 = W2 m ρ c (Proc.devRef .tc main_arg2) := by
    show StableHlo.after hostOps1 (W2 m ρ c) (Proc.devRef .tc main_arg2) = _
    after_results
  rw [e]
  exact ((W2_arr m ρ c 1).trans (((dat0 (V1 m ρ) c).arrAt_in 1 rfl _).trans (A_eq0 (V1 m ρ) c 1))).trans (entry0_weight m ρ c)

/-- and the bias laid out as a row again. -/
theorem entry1_bias (c : Dev nD) :
    rowBias (V3 m ρ c main_v26 : S1x64.Idx → Elt Ideal .f32) = m ((c : Thread nD τ).loc main_arg3) := by
  have e : (V3 m ρ c main_v26 : S1x64.Idx → Elt Ideal .f32)
      = shapeCast S1x64 (W2 m ρ c (Proc.devRef .tc main_arg3) : S64.Idx → Elt Ideal .f32) shapeCasts_S64_S1x64 := by
    show StableHlo.after hostOps1 (W2 m ρ c) (Proc.devRef .tc main_v26) = _
    after_results
    rfl
  have e3 : (W2 m ρ c (Proc.devRef .tc main_arg3) : S64.Idx → Elt Ideal .f32) = m ((c : Thread nD τ).loc main_arg3) := by
    refine (W2_of_ne m ρ c main_arg3 (by decide)).trans ?_
    show StableHlo.after hostOps0 (W0 m ρ c) (Proc.devRef .tc main_arg3) = _
    after_results
  rw [e, e3]; exact rowBias_reshape _ _

/-- So the second call leaves the second layer's result in its result array. -/
theorem out_eq (c : Dev nD) : W4 m ρ c (Proc.devRef .tc main_v27) = out m c := by
  refine (W4_arr m ρ c 3).trans ((Cert.KernelIdeal.Region1.final (V3 m ρ) c).trans ?_)
  unfold Cert.KernelIdeal.Region1.result out
  rw [entry1_features, entry1_weight, entry1_bias]

/-- THE RUN: every weakly fair execution terminates with the second layer's result and the first layer's result in
    the two result arrays, and the arguments as launched. -/
theorem run : θ_run defs (onTc (τ := τ) (main (F := Ideal))) ⟨m, fun _ => 0, ρ⟩ fun r => ∀ c : Dev nD,
      r.2.mem ((c.tc : Thread nD τ).loc main_v27) = out m c
      ∧ r.2.mem ((c.tc : Thread nD τ).loc main_v15) = hidden m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run_reads m ρ fun s h c =>
    ⟨(h c _ (mem_uc main_v27 (by decide))).trans (out_eq m ρ c),
     (h c _ (mem_uc main_v15 (by decide))).trans ((hidden_kept m ρ c).trans (hidden_eq m ρ c)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩

end Cert.KernelIdeal.KernelRun

end
-- ==== Proof.lean ====
/-
  Two rounds of message passing on a graph, a Pallas kernel against its jnp reference, on the extended reals.

  A round takes node features `h` (100000 × 64) and an edge list `e` (2 × 1250000): it gathers the source node's row for
  every edge and adds it into the destination node's row of a zero array (`aggregate h e`), then applies one linear
  map, `affine A W b (i, j) = Σ_k A[i, k] · W[j, k] + b[j]`, with a weight and a bias shared by both rounds. The
  program returns both rounds' results:

    hidden = affine (aggregate x e) W b          out = affine (aggregate hidden e) W b.

  Both programs aggregate with the same host operations, so the aggregation is never opened. They differ in the linear
  map. The kernel runs it as a pallas call over 20 blocks of 5000 rows, each block a product contracting the last axis
  of the features and of the weight into a zero accumulator (the operands narrowed to bf16 first, which changes nothing
  on extended reals) plus the bias row; the 20 blocks tile the result. The reference multiplies by the transposed
  weight and adds the bias repeated down the rows. Index by index both are the sum above, with the same factors in the
  same order, so no law of arithmetic beyond reading each side at an index is needed, and the inputs' finiteness is
  never used.

  The kernel's and the idealized kernel's frames are the generated ones; the reference's frame is its generated run
  with the results dropped; the idealization rewrote nothing, so what it preserves is trivial.
-/
import proofs.«145430_j31233002176551_1_alg».proof.Defs
import proofs.«145430_j31233002176551_1_alg».proof.Proof.Gen.Kernel
import proofs.«145430_j31233002176551_1_alg».proof.Proof.Gen.Kernel.Skeleton
import proofs.«145430_j31233002176551_1_alg».proof.Proof.Gen.Kernel.Launch
import proofs.«145430_j31233002176551_1_alg».proof.Proof.Gen.Kernel.Points
import proofs.«145430_j31233002176551_1_alg».proof.Proof.Gen.Kernel.Frame
import proofs.«145430_j31233002176551_1_alg».proof.Proof.Gen.KernelIdeal
import proofs.«145430_j31233002176551_1_alg».proof.Proof.Gen.KernelIdeal.Skeleton
import proofs.«145430_j31233002176551_1_alg».proof.Proof.Gen.KernelIdeal.Launch
import proofs.«145430_j31233002176551_1_alg».proof.Proof.Gen.KernelIdeal.Points
import proofs.«145430_j31233002176551_1_alg».proof.Proof.Gen.KernelIdeal.Frame
import proofs.«145430_j31233002176551_1_alg».proof.Proof.Gen.ReferenceIdeal
import proofs.«145430_j31233002176551_1_alg».proof.Proof.Gen.Pre_finite_inputs
import proofs.«145430_j31233002176551_1_alg».proof.Proof.Gen.ReferenceIdeal.Run
import proofs.«145430_j31233002176551_1_alg».proof.Proof.Gen.ReferenceIdeal.Read
import proofs.«145430_j31233002176551_1_alg».proof.Proof.RefLayer
import proofs.«145430_j31233002176551_1_alg».proof.Proof.KernelRun
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments alone: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with `out` and `hidden` of the same arguments in their two result arrays. -/
theorem algebraic : Cert.algebraic_KernelIdeal_ReferenceIdeal := by
  intro m ρ m' ρ' _ hagree
  refine ⟨fun c => Cert.KernelIdeal.KernelRun.out m c, fun c => Cert.KernelIdeal.KernelRun.hidden m c,
    Cert.KernelIdeal.KernelRun.run m ρ, ?_⟩
  refine (θ_run Cert.ReferenceIdeal.defs _ _).mono (fun _ h c => ?_) (Cert.ReferenceIdeal.Value.run (F := Ideal) m' ρ')
  obtain ⟨hout, hhid, hargs⟩ := h c
  obtain ⟨a0, a1, a2, a3⟩ := hagree c
  refine ⟨hout.trans ?_, hhid.trans ?_, hargs⟩
  · refine (Cert.ReferenceIdeal.Read.val_main_v33_eq (F := Ideal) _ _ _ _).trans ?_
    rw [Cert.ReferenceIdeal.RefLayer.second_layer, a0, a1, a2, a3]
    rfl
  · refine (Cert.ReferenceIdeal.Read.val_main_v18_eq (F := Ideal) _ _ _ _).trans ?_
    rw [Cert.ReferenceIdeal.RefLayer.first_layer, a0, a1, a2, a3]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
